-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S128x128 : Shape := ⟨2, ![128, 128]⟩
abbrev S2048x1024 : Shape := ⟨2, ![2048, 1024]⟩
abbrev S8x128 : Shape := ⟨2, ![8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩
abbrev S1x1024 : Shape := ⟨2, ![1, 1024]⟩

abbrev nBuf : Space → Nat
  | .hbm => 58
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S128x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1024x1024, .bf16⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x1, .f32⟩
  | .hbm, ⟨55, _⟩ => ⟨S1x1, .f32⟩
  | .hbm, ⟨56, _⟩ => ⟨S1x1024, .f32⟩
  | .hbm, ⟨57, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S8x128, .f32⟩
  | .local _ .vmem, ⟨3, _⟩ => ⟨S8x128, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1, .f32⟩
  | .local _ .vmem, ⟨9, _⟩ => ⟨S1x1, .f32⟩
  | .local _ .vmem, ⟨10, _⟩ => ⟨S1024x1024, .f32⟩
  | .local _ .vmem, ⟨11, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_cst_4 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_v6 : Ref sig .tc := ⟨.hbm, 18, rfl⟩
abbrev main_cst_5 : Ref sig .tc := ⟨.hbm, 19, rfl⟩
abbrev main_v7 : Ref sig .tc := ⟨.hbm, 20, rfl⟩
abbrev main_cst_6 : Ref sig .tc := ⟨.hbm, 21, rfl⟩
abbrev main_v8 : Ref sig .tc := ⟨.hbm, 22, rfl⟩
abbrev main_cst_7 : Ref sig .tc := ⟨.hbm, 23, rfl⟩
abbrev main_v9 : Ref sig .tc := ⟨.hbm, 24, rfl⟩
abbrev main_cst_8 : Ref sig .tc := ⟨.hbm, 25, rfl⟩
abbrev main_v10 : Ref sig .tc := ⟨.hbm, 26, rfl⟩
abbrev main_cst_9 : Ref sig .tc := ⟨.hbm, 27, rfl⟩
abbrev main_cst_10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_11 : Ref sig .tc := ⟨.hbm, 35, rfl⟩
abbrev main_cst_12 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v14 : Ref sig .tc := ⟨.hbm, 42, rfl⟩
abbrev main_cst_13 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_14 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_15 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  h_S_ : 0 < S_.numel
  reducesTo_S1024x1024_S_d0_1 : S1024x1024.ReducesTo [0, 1] S_
  bcast_S_S1024x1024 : S_.BroadcastsInDim S1024x1024 (![] : Fin 0 → Fin S1024x1024.rank)
  bitsLt_bf16_f32 : FTy.bits .bf16 < FTy.bits .f32
  shapeCasts_S_S1x1 : S_.ShapeCasts S1x1
  shapeCasts_S1024_S1x1024 : S1024.ShapeCasts S1x1024
  inb_S1x1_S1x1_0_0 : ∀ a, (![0, 0] : Fin 2 → Nat) a + S1x1.size a ≤ S1x1.size a
  h_S1x1 : 0 < S1x1.numel
  inb_S1024x1024_S1024x1024_0_0 : ∀ a, (![0, 0] : Fin 2 → Nat) a + S1024x1024.size a ≤ S1024x1024.size a
  h_S1024x1024 : 0 < S1024x1024.numel
  broadcasts_S1x1_S1024x1024 : S1x1.Broadcasts S1024x1024
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S128x128.size a
  hwx0_1 : ∀ i : grid0.Coords, EltTy.bits .f32 = 32 ∨ (Rect.block (s := S128x128) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S32768x1024.size a
  hwx1_5 : ∀ i : grid1.Coords, EltTy.bits .f32 = 32 ∨ (Rect.block (s := S32768x1024) S1024x1024.size (cc1_transform_5 i) (hinb1_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S32768x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S1024x1024, .f32⟩
  | .hbm, ⟨70, _⟩ => ⟨S1024x1024, .f32⟩
  | .hbm, ⟨71, _⟩ => ⟨S32768x1024, .f32⟩
  | .hbm, ⟨72, _⟩ => ⟨S1x1024, .f32⟩
  | .hbm, ⟨73, _⟩ => ⟨S32768x1024, .f32⟩
  | .hbm, ⟨74, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_cst_4 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_5 : Ref sig .tc := ⟨.hbm, 20, rfl⟩
abbrev main_cst_6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v8 : Ref sig .tc := ⟨.hbm, 27, rfl⟩
abbrev main_cst_7 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_8 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_9 : Ref sig .tc := ⟨.hbm, 36, rfl⟩
abbrev main_v15 : Ref sig .tc := ⟨.hbm, 37, rfl⟩
abbrev main_cst_10 : Ref sig .tc := ⟨.hbm, 38, rfl⟩
abbrev main_v16 : Ref sig .tc := ⟨.hbm, 39, rfl⟩
abbrev main_cst_11 : Ref sig .tc := ⟨.hbm, 40, rfl⟩
abbrev main_v17 : Ref sig .tc := ⟨.hbm, 41, rfl⟩
abbrev main_cst_12 : Ref sig .tc := ⟨.hbm, 42, rfl⟩
abbrev main_v18 : Ref sig .tc := ⟨.hbm, 43, rfl⟩
abbrev main_cst_13 : Ref sig .tc := ⟨.hbm, 44, rfl⟩
abbrev main_cst_14 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_15 : Ref sig .tc := ⟨.hbm, 52, rfl⟩
abbrev main_cst_16 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_v22 : Ref sig .tc := ⟨.hbm, 59, rfl⟩
abbrev main_cst_17 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_18 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  reducesTo_S32768x1024_S_d0_1 : S32768x1024.ReducesTo [0, 1] S_
  bcast_S_S32768x1024 : S_.BroadcastsInDim S32768x1024 (![] : Fin 0 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.KernelRun.lean ====
/-
  The kernel program's run with its result named.

  The program is two launches among stretches of host operations. Every weakly fair execution terminates without a
  fault; in the final state the result array holds what the fold of the segments leaves in its buffer — the second
  launch's write-backs over the arrays the host operations left — and the three arguments are as launched. The result
  is read off the last thread state exactly as the arguments are.
-/
import proofs.«156205_j49031346651645_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents the
    segments' fold gives its buffer and the arguments unchanged. -/
theorem run : θ_run defs (onTc (τ := τ) (main (F := F))) ⟨m, fun _ => 0, ρ⟩ (fun r => ∀ c : Dev nD,
      r.2.mem ((c.tc : Thread nD τ).loc main_v26) = W11 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v26 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c)⟩)

end Cert.KernelIdeal.ValueRun

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.LibScalarBroadcast.lean ====
/-
  A 1×1 array stretched over a matrix, read at an entry. Independent of any program.

  `broadcast_11_apply` — a `[1, 1]` array broadcast to `[a, b]` holds, at every `(p, q)`, its one entry `(0, 0)`:
  a scalar a kernel receives as a 1×1 block and multiplies a whole tile by.
-/
import Idealize.ShloMosaic.Lib.ValueIdx
import Idealize.ShloMosaic.Lib.Pipeline.Value

namespace Cert.ScalarBroadcast

open Idealize.ShloMosaic Idealize.ShloMosaic.ValueIdx

variable {α : Type}

/-- A `[1, 1]` array broadcast to `[a, b]` reads, at `(p, q)`, the operand's entry `(0, 0)`. -/
theorem broadcast_11_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) :=
  broadcastTo_apply v h _ _ (fun ax => by
    match ax with
    | ⟨0, _⟩ => show (0 : ℕ) = if (1 : ℕ) = 1 then 0 else _; rw [if_pos rfl]
    | ⟨1, _⟩ => show (0 : ℕ) = if (1 : ℕ) = 1 then 0 else _; rw [if_pos rfl])

end Cert.ScalarBroadcast
-- ==== Proof.Consts.lean ====
/-
  The float constants the two programs spell, as the extended reals their bit patterns denote.

  The scale of a tensor is clamped between the patterns of 1e-12 and 1e12, an entry is clamped between -448 and 448,
  multiplied by 8, rounded, divided by 8, and the kernel's output scale is 1 over a product. What the algebra needs of
  these patterns: 8 and 1 by value; -448 and 448 as some reals; the two clamp bounds of a scale as POSITIVE reals; and
  the pattern of minus infinity as the bottom element.
-/
import Idealize.ShloMosaic.PureOps.Ideal

noncomputable section

namespace Cert.QuantConsts

open Idealize.ShloMosaic

/-- The pattern of 8.0 denotes the real 8. -/
theorem ofBits_eight : Ideal.ofBits .f32 0x41000000#32 = ((8 : ℝ) : EReal) := by
  simp [Ideal.ofBits, Ideal.ieee, -EReal.coe_mul]; norm_num

/-- The pattern of 1.0 denotes the real 1. -/
theorem ofBits_one : Ideal.ofBits .f32 0x3F800000#32 = ((1 : ℝ) : EReal) := by
  simp [Ideal.ofBits, Ideal.ieee, -EReal.coe_mul]; norm_num

/-- The pattern of 448.0 denotes a real. -/
theorem ofBits_448 : Ideal.ofBits .f32 0x43E00000#32 = ((448 : ℝ) : EReal) := by
  simp [Ideal.ofBits, Ideal.ieee, -EReal.coe_mul]; norm_num

/-- The pattern of -448.0 denotes a real. -/
theorem ofBits_neg448 : Ideal.ofBits .f32 0xC3E00000#32 = ((-448 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-- The lower clamp bound of a scale (the pattern nearest 1e-12) denotes a positive real. -/
theorem ofBits_lo_pos : ∃ r : ℝ, 0 < r ∧ Ideal.ofBits .f32 0x2B8CBCCC#32 = (r : EReal) := by
  refine ⟨_, ?_, by simp [Ideal.ofBits, Ideal.ieee, -EReal.coe_mul]; rfl⟩
  positivity

/-- The upper clamp bound of a scale (the pattern nearest 1e12) denotes a positive real. -/
theorem ofBits_hi_pos : ∃ r : ℝ, 0 < r ∧ Ideal.ofBits .f32 0x5368D4A5#32 = (r : EReal) := by
  refine ⟨_, ?_, by simp [Ideal.ofBits, Ideal.ieee, -EReal.coe_mul]; rfl⟩
  positivity

end Cert.QuantConsts

end
-- ==== Proof.Spec.lean ====
/-
  The arithmetic both programs perform, on the extended reals, and the two laws that join them.

  A tensor's scale is 448 / (2·amax + ε) clamped between two positive bounds, so it is a nonzero real whatever amax is.
  An entry is quantized by clamping entry·scale to [-448, 448], multiplying by 8, rounding to the nearest integer and
  dividing by 8, so it is a real whatever the entry is. One program contracts the quantized entries and multiplies the
  sum once by 1 / (sx·sw); the other divides every quantized entry by its scale before contracting. For real entries
  and nonzero real scales the two agree: a real factor moves across a finite sum of real products.

  The absolute maximum of a matrix taken block by block and then over the blocks is the absolute maximum of the
  matrix: each block maximum is below the whole maximum, and each entry is below its block's maximum.
-/
import Idealize.ShloMosaic.PureOps.Ideal
import proofs.«156205_j49031346651645_2_alg».proof.Proof.Consts

noncomputable section

namespace Cert.QuantSpec

open Idealize.ShloMosaic Cert.QuantConsts

/-- The scale of a tensor whose absolute maximum is `a`: 448 / (a·2 + ε), clamped below and then above. -/
def scaleOf (a : EReal) : EReal :=
  min (Ideal.ofBits .f32 0x5368D4A5#32) (max (Ideal.ofBits .f32 0x2B8CBCCC#32)
    (Ideal.div (Ideal.ofBits .f32 0x43E00000#32) (a * Ideal.ofBits .f32 0x40000000#32 + Ideal.ofBits .f32 0x2B8CBCCC#32)))

/-- An entry `v` quantized at scale `s`: clamp v·s to [-448, 448], times 8, round half to even, over 8. -/
def quant (s v : EReal) : EReal :=
  Ideal.div (Ideal.liftRound Ideal.roundHalfEven
    (min (Ideal.ofBits .f32 0x43E00000#32) (max (Ideal.ofBits .f32 0xC3E00000#32) (v * s)) * Ideal.ofBits .f32 0x41000000#32))
    (Ideal.ofBits .f32 0x41000000#32)

/-- An extended real between two reals is a real. -/
theorem real_of_between {lo hi : ℝ} {v : EReal} (h1 : (lo : EReal) ≤ v) (h2 : v ≤ (hi : EReal)) : ∃ r : ℝ, v = (r : EReal) := by
  induction v using EReal.rec with
  | bot => exact absurd h1 (by simp)
  | top => exact absurd h2 (by simp)
  | coe r => exact ⟨r, rfl⟩

/-- A scale is a nonzero real. -/
theorem scaleOf_real (a : EReal) : ∃ r : ℝ, r ≠ 0 ∧ scaleOf a = (r : EReal) := by
  obtain ⟨lo, hlo, elo⟩ := ofBits_lo_pos
  obtain ⟨hi, hhi, ehi⟩ := ofBits_hi_pos
  unfold scaleOf
  rw [elo, ehi]
  generalize Ideal.div (Ideal.ofBits .f32 0x43E00000#32) (a * Ideal.ofBits .f32 0x40000000#32 + (lo : EReal)) = v
  have hge : ((min lo hi : ℝ) : EReal) ≤ min (hi : EReal) (max (lo : EReal) v) := by
    refine le_min ?_ ?_
    · exact EReal.coe_le_coe_iff.2 (min_le_right _ _)
    · exact le_trans (EReal.coe_le_coe_iff.2 (min_le_left _ _)) (le_max_left _ _)
  obtain ⟨r, hr⟩ := real_of_between hge (min_le_left _ _)
  refine ⟨r, ?_, hr⟩
  have : (0 : ℝ) < r := by
    have h0 : ((0 : ℝ) : EReal) < (r : EReal) := by
      rw [← hr]; exact lt_of_lt_of_le (EReal.coe_lt_coe_iff.2 (lt_min hlo hhi)) hge
    exact EReal.coe_lt_coe_iff.1 h0
  exact ne_of_gt this

/-- A quantized entry is a real. -/
theorem quant_real (s v : EReal) : ∃ r : ℝ, quant s v = (r : EReal) := by
  unfold quant
  rw [ofBits_448, ofBits_neg448, ofBits_eight]
  obtain ⟨c, hc⟩ : ∃ c : ℝ, min ((448 : ℝ) : EReal) (max ((-448 : ℝ) : EReal) (v * s)) = (c : EReal) :=
    real_of_between (lo := -448) (hi := 448)
      (le_min (EReal.coe_le_coe_iff.2 (by norm_num)) (le_max_left _ _)) (min_le_left _ _)
  rw [hc, ← EReal.coe_mul, Ideal.liftRound_coe, Ideal.div_coe (by norm_num : (8 : ℝ) ≠ 0), ← EReal.coe_mul]
  exact ⟨_, rfl⟩

/-- The coercion of the reals commutes with finite sums. -/
theorem coe_sum {K : Type} (s : Finset K) (f : K → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- One scale 1 / (sx·sw) applied to the contracted sum is the contraction of the entries each divided by its scale,
    for real entries and nonzero real scales. -/
theorem dequant_sum {K : Type} [Fintype K] (A B : K → EReal) (hA : ∀ k, ∃ r : ℝ, A k = (r : EReal))
    (hB : ∀ k, ∃ r : ℝ, B k = (r : EReal)) (sx sw : EReal) (hsx : ∃ r : ℝ, r ≠ 0 ∧ sx = (r : EReal))
    (hsw : ∃ r : ℝ, r ≠ 0 ∧ sw = (r : EReal)) :
    (∑ k, A k * B k) * Ideal.div (Ideal.ofBits .f32 0x3F800000#32) (sx * sw)
      = ∑ k, Ideal.div (A k) sx * Ideal.div (B k) sw := by
  choose a ha using hA
  choose b hb using hB
  obtain ⟨x, hx, rfl⟩ := hsx
  obtain ⟨w, hw, rfl⟩ := hsw
  have hxw : x * w ≠ 0 := mul_ne_zero hx hw
  rw [ofBits_one, ← EReal.coe_mul, Ideal.div_coe hxw, ← EReal.coe_mul]
  simp only [ha, hb, Ideal.div_coe hx, Ideal.div_coe hw, ← EReal.coe_mul]
  rw [coe_sum, coe_sum, ← EReal.coe_mul]
  congr 1
  rw [Finset.sum_mul]
  refine Finset.sum_congr rfl fun k _ => ?_
  field_simp

/-- A fold of `max` from the bottom element is the supremum. -/
theorem fold_max_bot {K : Type} (s : Finset K) (f : K → EReal) : s.fold max ⊥ f = s.sup f := rfl

/-- Two families with the same supremum: every member of the first is below the supremum of the second, and every
    member of the second is below some member of the first. -/
theorem sup_eq_of_cofinal {I J : Type} [Fintype I] [Fintype J] (f : I → EReal) (P : J → EReal)
    (h1 : ∀ j, P j ≤ Finset.univ.sup f) (h2 : ∀ i, ∃ j, f i ≤ P j) : Finset.univ.sup P = Finset.univ.sup f := by
  refine le_antisymm (Finset.sup_le fun j _ => h1 j) (Finset.sup_le fun i _ => ?_)
  obtain ⟨j, hj⟩ := h2 i
  exact le_trans hj (Finset.le_sup (Finset.mem_univ j))

end Cert.QuantSpec

end
-- ==== Proof.Body0.lean ====
/-
  The abs-max kernel's stored value, read at an entry.

  One grid point holds a block of 2048 rows of x. The body takes absolute values, the maximum of each row, the maximum
  of those row maxima, and writes that one number to every entry of an 8×128 block. So every entry of the stored block
  is the supremum of |x| over the 2048×1024 entries of the point's block of x.
-/
import proofs.«156205_j49031346651645_2_alg».proof.Proof.Gen.KernelIdeal.Skeleton
import proofs.«156205_j49031346651645_2_alg».proof.Proof.LibKeepdims
import proofs.«156205_j49031346651645_2_alg».proof.Proof.LibColumnReads
import proofs.«156205_j49031346651645_2_alg».proof.Proof.LibScalarBroadcast
import proofs.«156205_j49031346651645_2_alg».proof.Proof.Spec
import Idealize.ShloMosaic.Lib.ValueIdx
import Idealize.ShloMosaic.Lib.Pipeline.Value
import Idealize.ShloMosaic.PureOps.Ideal.Laws

noncomputable section

namespace Cert.KernelIdeal.AmaxBody

open Idealize.ShloMosaic Idealize.ShloMosaic.ValueIdx Cert.KernelIdeal Cert.KernelIdeal.Gen Cert.QuantSpec Cert.QuantConsts
open Cert.ScalarBroadcast
open Facts₀ Facts

/-- The absolute value of an extended real, as both programs compute it. -/
abbrev absE (v : EReal) : EReal := max v (-v)

/-- The maximum over the rows of the row maxima of |x|, as the body's two reductions print it: the supremum of |x|
    over all 2048×1024 entries. -/
theorem tile_max (x : FVec Ideal S2048x1024 .f32) (hφ : FKind.Formats .f32) (h1 : S2048x1024.Reduces [1] S2048)
    (h0 : S2048x1.Reduces [0] S1) (hc : S2048.ShapeCasts S2048x1) (ha : (0xFF800000#32 : BitVec 32) = 0xFF800000#32) :
    multiReduction .maximumf [0] S1
        (shapeCast S2048x1 (multiReduction .maximumf [1] S2048 (absf x) 0xFF800000#32 h1 hφ ha) hc) 0xFF800000#32 h0 hφ ha
        (ix1 (0 : Fin 1))
      = Finset.univ.sup (fun a : Fin 2048 => Finset.univ.sup (fun l : Fin 1024 => absE (x (ix2 a l)))) := by
  have inner : ∀ k : Fin 2048,
      shapeCast S2048x1 (multiReduction .maximumf [1] S2048 (absf x) 0xFF800000#32 h1 hφ ha) hc (ix2 k (0 : Fin 1))
        = Finset.univ.sup (fun l : Fin 1024 => absE (x (ix2 k l))) := fun k =>
    (Cert.MemAttn.Layout.shapeCast_a_a1_apply (a := 2048) _ hc k 0).trans
      ((Cert.MemAttn.Layout.multiReduction_maximumf_row (m := 2048) (n := 1024) (absf x) 0xFF800000#32 h1 hφ ha k).trans
        (by rw [ofBits_neg_inf]; rfl))
  have outer := Cert.ColumnReads.multiReduction_maximumf_col (m := 2048) (n := 1)
    (shapeCast S2048x1 (multiReduction .maximumf [1] S2048 (absf x) 0xFF800000#32 h1 hφ ha) hc) 0xFF800000#32 h0 hφ ha (0 : Fin 1)
  rw [ofBits_neg_inf] at outer
  refine outer.trans ?_
  exact congrArg (fun f => (Finset.univ : Finset (Fin 2048)).fold max ⊥ f) (funext inner)

/-- Every entry of the stored block: the supremum of |x| over the block of x. -/
theorem stored_apply (x : Vec Ideal S2048x1024 .f32) (y : S8x128.Idx) :
    k0_pay1 (F := Ideal) x y
      = Finset.univ.sup (fun a : Fin 2048 => Finset.univ.sup (fun l : Fin 1024 => absE (x (ix2 a l)))) := by
  obtain ⟨r, s, rfl⟩ : ∃ (r : Fin 8) (s : Fin 128), y = ix2 r s := ⟨y 0, y 1, eq_ix2 y⟩
  unfold k0_pay1
  dsimp only
  refine (broadcast_11_apply (a := 8) (b := 128) _ Facts₀.broadcasts_S1x1_S8x128 r s).trans ?_
  refine (congrFun (shapeCast_self _ Facts₀.shapeCasts_S1x1_S1x1) _).trans ?_
  refine (Cert.MemAttn.Layout.shapeCast_a_a1_apply (a := 1) _ Facts₀.shapeCasts_S1_S1x1 0 0).trans ?_
  exact tile_max x _ _ _ _ _

end Cert.KernelIdeal.AmaxBody

end
-- ==== Proof.Region0.lean ====
/-
  The abs-max launch as one function of the array it is entered with.

  Grid point t takes rows 2048·t … 2048·t + 2047 of x and writes rows 8·t … 8·t + 7 of a 128×128 array, every entry of
  which is the supremum of |x| over those 2048 rows. The 16 blocks tile the 128×128 array, so after the launch its
  entry (r, s) is the supremum of |x| over the rows 2048·(r / 8) … 2048·(r / 8) + 2047.
-/
import proofs.«156205_j49031346651645_2_alg».proof.Proof.Gen.KernelIdeal.Frame
import proofs.«156205_j49031346651645_2_alg».proof.Proof.Body0
import Idealize.ShloMosaic.Lib.Pipeline.Value

set_option maxRecDepth 16384

noncomputable section

namespace Cert.KernelIdeal.AmaxRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QuantSpec
open Facts₀ Facts
open Cert.KernelIdeal.AmaxBody

variable (V : (c : Dev nD) → (b : Ref sig .tc) → Buf (Elt Ideal) ((c : Thread nD τ).loc b))

theorem zero_offsets : (![0, 0] : Fin 2 → Nat) = fun _ => 0 := funext fun a => by fin_cases a <;> rfl

/-- The 128×128 array of partial maxima, entry by entry, from x. -/
def partialsOf (x : S32768x1024.Idx → Elt Ideal .f32) : S128x128.Idx → Elt Ideal .f32 :=
  fun i => Finset.univ.sup (fun a : Fin 2048 => Finset.univ.sup (fun l : Fin 1024 =>
    absE (x (ix2 (⟨(i 0).val / 8 * 2048 + a.val, by
      have h0 : (i 0).val < 128 := (i 0).isLt
      have ha : a.val < 2048 := a.isLt
      omega⟩ : Fin 32768) l))))

/-- The printed index maps over the grid: both blocks are block t along the rows. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of `partialsOf` of x as the launch finds it. -/
theorem flushed_eq (c : Dev nD) (t : Fin cfg0.N) :
    (dat0 V c).flushed 1 t = ((cfg0.win 1).blk t).view.read (Elt Ideal) (partialsOf (V c main_arg0)) := by
  show (cfg0.win 1).cut (grid0.coords t) ((dat0 V c).after 1 t) = _
  rw [after0_1]
  unfold out0_1
  rw [View.canon_unit_zero zero_offsets]
  simp only [View.ld_unit_zero (S := S2048x1024) zero_offsets]
  obtain ⟨e00, e01, e10, e11⟩ := idx_facts t
  have ht : t.val < 16 := t.isLt
  funext j
  have hj : (j 0).val < 8 := (j 0).isLt
  refine (AmaxBody.stored_apply (iblk0 V c 0 t) j).trans ?_
  have hx : ∀ (a : Fin 2048) (l : Fin 1024), iblk0 V c 0 t (ix2 a l)
      = V c main_arg0 (ix2 (⟨(win0_1.index t (0 : Fin 2) * 8 + 1 * (j 0).val) / 8 * 2048 + a.val, by
          have ha : a.val < 2048 := a.isLt
          omega⟩ : Fin 32768) l) := fun a l => by
    have ha : a.val < 2048 := a.isLt
    show V c main_arg0 (((cfg0.win 0).blk t).view.emb (ix2 a l)) = _
    refine congrArg (V c main_arg0) (funext fun ax => Fin.ext ?_)
    match ax with
    | ⟨0, _⟩ =>
      show win0_0.index t (0 : Fin 2) * 2048 + 1 * a.val = (win0_1.index t (0 : Fin 2) * 8 + 1 * (j 0).val) / 8 * 2048 + a.val
      omega
    | ⟨1, _⟩ => show win0_0.index t (1 : Fin 2) * 1024 + 1 * l.val = l.val; omega
  simp only [hx]
  rfl

/-- An index of the 128×128 array is in point t's block iff each coordinate is in the block's range on its axis. -/
theorem mem_blk (t : Fin cfg0.N) (i : S128x128.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v0).slice (win0_1.rect t)).set ↔ _
  rw [View.set_slice_whole, Rect.mem_set_unit]
  exact Iff.rfl

/-- Row r of the 128×128 array lies in the block of point r / 8. -/
theorem cover (i : S128x128.Idx) :
    ∃ t : Fin cfg0.N, (cfg0.win 1).flush t = true ∧ i ∈ ((cfg0.win 1).blk t).view.set := by
  have hi0 : (i 0).val < 128 := (i 0).isLt
  have hi1 : (i 1).val < 128 := (i 1).isLt
  have hN : cfg0.N = 16 := by decide
  obtain ⟨t, ht⟩ : ∃ t : Fin cfg0.N, t.val = (i 0).val / 8 := ⟨⟨(i 0).val / 8, by rw [hN]; omega⟩, rfl⟩
  obtain ⟨e00, e01, e10, e11⟩ := idx_facts t
  refine ⟨t, flush0_1 t, ?_⟩
  rw [mem_blk]
  intro a
  match a with
  | ⟨0, _⟩ =>
    show win0_1.index t (0 : Fin 2) * 8 ≤ (i 0).val ∧ (i 0).val < win0_1.index t (0 : Fin 2) * 8 + 8
    omega
  | ⟨1, _⟩ =>
    show win0_1.index t (1 : Fin 2) * 128 ≤ (i 1).val ∧ (i 1).val < win0_1.index t (1 : Fin 2) * 128 + 128
    omega

/-- The 128×128 array after the launch. -/
theorem final (c : Dev nD) : (dat0 V c).arrAt 1 cfg0.N = partialsOf (V c main_arg0) :=
  (dat0 V c).arrAt_eq_of_cover 1 _ (fun t _ => flushed_eq V c t) cover

end Cert.KernelIdeal.AmaxRegion

end
-- ==== Proof.LibTransposedColumn.lean ====
/-
  A column of row statistics turned into a row, a shape cast that changes nothing, a row sum, and a product of two
  matrices along their rows, each read at an index given by coordinates. Independent of any program.

  * `shapeCast_same_apply` — a shape cast between equal shapes reads the operand at the same index.
  * `transposedColumn_apply` — a vector `[a]` kept as the column `[a, 1]` and then transposed to the row `[1, a]`
    holds, at `(u, i)`, the vector's entry `i`.
  * `lift_row`, `multiReduction_add_row` — a sum over the columns of an `[m, n]` array of extended reals, read at
    row `p`, is the sum over `k : Fin n` of the entries `(p, k)`.
  * `matmul_rows_rows_apply` — a product `[a, n] · [b, n]` with BOTH operands contracted along their last axis,
    into the zero accumulator, read at `(p, c)`, is the sum over `k : Fin n` of the left factor at `(p, k)` times the
    right factor at `(c, k)`: row `p` of the one against row `c` of the other. The contracted coordinates follow
    from which axes are contracted; the kept ones (`hl0`, `hr0`) are the caller's (they compute on a literal record).
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.TransposedColumn

open Idealize.ShloMosaic Idealize.ShloMosaic.ValueIdx

variable {α : Type}

/-- A shape cast between equal shapes reads the operand at the same index: the row-major position is the same. -/
theorem shapeCast_same_apply {s : Shape} (x : s.Idx → α) (h : s.ShapeCasts s) (j : s.Idx) :
    shapeCast s x h j = x j :=
  shapeCast_apply x h j j rfl

/-- A vector `[a]` kept as the column `[a, 1]` and transposed to the row `[1, a]` holds, at `(u, i)`, entry `i`. -/
theorem transposedColumn_apply {a : ℕ} (x : (⟨1, ![a]⟩ : Shape).Idx → α)
    (hc : (⟨1, ![a]⟩ : Shape).ShapeCasts ⟨2, ![a, 1]⟩)
    (ht : (⟨2, ![a, 1]⟩ : Shape).Transposes [1, 0] ⟨2, ![1, a]⟩) (u : Fin 1) (i : Fin a) :
    transpose ⟨2, ![1, a]⟩ [1, 0] (shapeCast ⟨2, ![a, 1]⟩ x hc) ht (ix2 u i) = x (ix1 i) := by
  refine (transpose_ix2_apply (shapeCast ⟨2, ![a, 1]⟩ x hc) ht u i).trans ?_
  exact shapeCast_apply x hc _ _ (by
    have hu : u.val = 0 := by omega
    rw [Shape.rowMajor_val_two, Shape.rowMajor_val_one]
    show i.val = i.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A rows-by-rows product `[a, n] · [b, n]` into the zero accumulator, read at `(p, c)`: the sum over the shared
    last axis of row `p` of the left factor against row `c` of the right one. -/
theorem matmul_rows_rows_apply {a n b : ℕ} (d : DotDims ⟨2, ![a, n]⟩ ⟨2, ![b, n]⟩ ⟨2, ![a, b]⟩)
    (hr : d.contr.rank = 1) (hs : d.contr.size ⟨0, by omega⟩ = n)
    (hlc : d.lhsContracting = [1]) (hrc : d.rhsContracting = [1])
    (hl0 : ∀ (i : (⟨2, ![a, b]⟩ : Shape).Idx) (q : d.contr.Idx), (d.lhsIdx i q 0).val = (i 0).val)
    (hr0 : ∀ (i : (⟨2, ![a, b]⟩ : Shape).Idx) (q : d.contr.Idx), (d.rhsIdx i q 0).val = (i 1).val)
    {φ₁ φ₂ : FTy} (prec : Option ContractPrecision) (lhs : FVec Ideal ⟨2, ![a, n]⟩ φ₁) (rhs : FVec Ideal ⟨2, ![b, n]⟩ φ₂)
    (p : Fin a) (c : Fin b) :
    FloatOps.matmul d prec lhs rhs (constant ⟨2, ![a, b]⟩ .f32 0x00000000#32) (ix2 p c)
      = ∑ k : Fin n, lhs (ix2 p k) * rhs (ix2 c k) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 c k := by
    funext ax; apply Fin.ext
    match ax with
    | ⟨0, _⟩ => exact hr0 _ _
    | ⟨1, _⟩ => exact (d.rhsIdx_val_of_single hrc _ _).trans hk
  rw [hL, hR]

end Cert.TransposedColumn

end
-- ==== Proof.Body1.lean ====
/-
  The matmul kernel's stored value, read at an entry.

  One grid point holds a block of 1024 rows of x, the whole quantized weight, the bias row, the activation scale and
  the output scale, the last two as 1×1 arrays. Entry (p, q) of what it stores is the contraction over k of the
  quantized x(p, k) against the weight's (q, k), times the output scale, plus the bias entry q.
-/
import proofs.«156205_j49031346651645_2_alg».proof.Proof.Gen.KernelIdeal.Skeleton
import proofs.«156205_j49031346651645_2_alg».proof.Proof.LibTransposedColumn
import proofs.«156205_j49031346651645_2_alg».proof.Proof.Spec
import proofs.«156205_j49031346651645_2_alg».proof.Proof.LibScalarBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MatmulBody

open Idealize.ShloMosaic Idealize.ShloMosaic.ValueIdx Cert.KernelIdeal Cert.KernelIdeal.Gen Cert.QuantSpec Cert.ScalarBroadcast
open Facts₀ Facts

/-- The kept coordinate of the left factor of the kernel's product is the output's row. -/
theorem lhs_kept (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The kept coordinate of the right factor is the output's column. -/
theorem rhs_kept (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The product of two 1024×1024 matrices along their rows, into the zero accumulator, at (p, q). -/
theorem product_apply (l : FVec Ideal S1024x1024 .bf16) (r : FVec Ideal S1024x1024 .bf16) (p q : Fin 1024) :
    matmul dot_S1024x1024_S1024x1024_S1024x1024_1_1_0_0_n_n none l r (constant (F := Ideal) S1024x1024 .f32 0x00000000#32) (ix2 p q)
      = ∑ k : Fin 1024, l (ix2 p k) * r (ix2 q k) :=
  Cert.TransposedColumn.matmul_rows_rows_apply (a := 1024) (n := 1024) (b := 1024)
    dot_S1024x1024_S1024x1024_S1024x1024_1_1_0_0_n_n rfl rfl rfl rfl lhs_kept rhs_kept none l r p q

/-- Entry (p, q) of the stored block. -/
theorem stored_apply (xs inv : Vec Ideal S1x1 .f32) (x : Vec Ideal S1024x1024 .f32) (w : Vec Ideal S1024x1024 .bf16)
    (b : Vec Ideal S1x1024 .f32) (p q : Fin 1024) :
    k1_pay1 (F := Ideal) xs inv x w b (ix2 p q)
      = (∑ k : Fin 1024, quant (xs (ix2 (0 : Fin 1) (0 : Fin 1))) (x (ix2 p k)) * w (ix2 q k)) * inv (ix2 (0 : Fin 1) (0 : Fin 1))
        + b (ix2 (0 : Fin 1) q) := by
  unfold k1_pay1
  rw [addf_apply, mulf_apply, product_apply]
  rw [shapeCast_self, shapeCast_self, shapeCast_self, shapeCast_self]
  rw [broadcast_11_apply (a := 1024) (b := 1024) inv, broadcastTo_1b_ab_apply]
  congr 1
  congr 1
  refine Finset.sum_congr rfl fun k _ => ?_
  congr 1
  rw [truncf_apply, divf_apply, broadcast_apply]
  show Ideal.div (Ideal.liftRound Ideal.roundHalfEven (min _ (max _ (x (ix2 p k) * _)) * _)) _ = _
  rw [broadcast_11_apply (a := 1024) (b := 1024) xs]
  rfl

end Cert.KernelIdeal.MatmulBody

end
-- ==== Proof.Region1.lean ====
/-
  The matmul launch as one function of the arrays it is entered with.

  Grid point t takes rows 1024·t … 1024·t + 1023 of x, the whole weight, bias and both scales, and writes rows
  1024·t … 1024·t + 1023 of the output. The 32 blocks tile the output, so after the launch entry (i, j) of the output is
  the contraction over k of the quantized x(i, k) against the weight's (j, k), times the output scale, plus bias j —
  one function of the arrays as the launch finds them, whatever they are.
-/
import proofs.«156205_j49031346651645_2_alg».proof.Proof.Gen.KernelIdeal.Frame
import proofs.«156205_j49031346651645_2_alg».proof.Proof.Body1
import Idealize.ShloMosaic.Lib.Pipeline.Value

set_option maxRecDepth 16384

noncomputable section

namespace Cert.KernelIdeal.MatmulRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QuantSpec
open Facts₀ Facts

variable (V : (c : Dev nD) → (b : Ref sig .tc) → Buf (Elt Ideal) ((c : Thread nD τ).loc b))

theorem zero_offsets : (![0, 0] : Fin 2 → Nat) = fun _ => 0 := funext fun a => by fin_cases a <;> rfl

/-- The output array of the launch, entry by entry, from the five arrays it reads. -/
def outOf (x : S32768x1024.Idx → Elt Ideal .f32) (w : S1024x1024.Idx → Elt Ideal .bf16) (b : S1x1024.Idx → Elt Ideal .f32)
    (xs inv : S1x1.Idx → Elt Ideal .f32) : S32768x1024.Idx → Elt Ideal .f32 :=
  fun i => (∑ k : Fin 1024, quant (xs (ix2 (0 : Fin 1) (0 : Fin 1))) (x (ix2 (⟨(i 0).val, (i 0).isLt⟩ : Fin 32768) k))
      * w (ix2 (⟨(i 1).val, (i 1).isLt⟩ : Fin 1024) k)) * inv (ix2 (0 : Fin 1) (0 : Fin 1))
    + b (ix2 (0 : Fin 1) (⟨(i 1).val, (i 1).isLt⟩ : Fin 1024))

/-- The printed index maps over the grid: x's block and the output's block are block t along the rows; every other
    block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of `outOf` of the arrays as the launch finds them. -/
theorem flushed_eq (c : Dev nD) (t : Fin cfg1.N) :
    (dat1 V c).flushed 5 t = ((cfg1.win 5).blk t).view.read (Elt Ideal)
      (outOf (V c main_arg0) (V c main_v20) (V c main_v25) (V c main_v24) (V c main_v23)) := by
  show (cfg1.win 5).cut (grid1.coords t) ((dat1 V c).after 5 t) = _
  rw [after1_5]
  unfold out1_5
  rw [View.canon_unit_zero zero_offsets]
  simp only [View.ld_unit_zero (S := S1024x1024) zero_offsets, View.ld_unit_zero (S := S1x1) zero_offsets,
    View.ld_unit_zero (S := S1x1024) zero_offsets]
  obtain ⟨e00, e01, e10, e11, e20, e21, e30, e31, e40, e41, e50, e51⟩ := idx_facts t
  funext j
  obtain ⟨p, q, rfl⟩ : ∃ (p : Fin 1024) (q : Fin 1024), j = ix2 p q := ⟨j 0, j 1, eq_ix2 j⟩
  refine (MatmulBody.stored_apply (iblk1 V c 3 t) (iblk1 V c 4 t) (iblk1 V c 0 t) (iblk1 V c 1 t) (iblk1 V c 2 t) p q).trans ?_
  have hp : p.val < 1024 := p.isLt
  have hq : q.val < 1024 := q.isLt
  have hxs : iblk1 V c 3 t (ix2 (0 : Fin 1) (0 : Fin 1)) = V c main_v24 (ix2 (0 : Fin 1) (0 : Fin 1)) := by
    show V c main_v24 (((cfg1.win 3).blk t).view.emb (ix2 (0 : Fin 1) (0 : Fin 1))) = V c main_v24 (ix2 (0 : Fin 1) (0 : Fin 1))
    refine congrArg (V c main_v24) (funext fun a => Fin.ext ?_)
    match a with
    | ⟨0, _⟩ => show win1_3.index t (0 : Fin 2) * 1 + 1 * 0 = 0; omega
    | ⟨1, _⟩ => show win1_3.index t (1 : Fin 2) * 1 + 1 * 0 = 0; omega
  have hinv : iblk1 V c 4 t (ix2 (0 : Fin 1) (0 : Fin 1)) = V c main_v23 (ix2 (0 : Fin 1) (0 : Fin 1)) := by
    show V c main_v23 (((cfg1.win 4).blk t).view.emb (ix2 (0 : Fin 1) (0 : Fin 1))) = V c main_v23 (ix2 (0 : Fin 1) (0 : Fin 1))
    refine congrArg (V c main_v23) (funext fun a => Fin.ext ?_)
    match a with
    | ⟨0, _⟩ => show win1_4.index t (0 : Fin 2) * 1 + 1 * 0 = 0; omega
    | ⟨1, _⟩ => show win1_4.index t (1 : Fin 2) * 1 + 1 * 0 = 0; omega
  have hb : iblk1 V c 2 t (ix2 (0 : Fin 1) q)
      = V c main_v25 (ix2 (0 : Fin 1) (⟨win1_5.index t (1 : Fin 2) * 1024 + 1 * q.val, by omega⟩ : Fin 1024)) := by
    show V c main_v25 (((cfg1.win 2).blk t).view.emb (ix2 (0 : Fin 1) q)) = _
    refine congrArg (V c main_v25) (funext fun a => Fin.ext ?_)
    match a with
    | ⟨0, _⟩ => show win1_2.index t (0 : Fin 2) * 1 + 1 * 0 = 0; omega
    | ⟨1, _⟩ => show win1_2.index t (1 : Fin 2) * 1024 + 1 * q.val = win1_5.index t (1 : Fin 2) * 1024 + 1 * q.val; omega
  have ht : t.val < 32 := t.isLt
  have hx : ∀ k : Fin 1024, iblk1 V c 0 t (ix2 p k)
      = V c main_arg0 (ix2 (⟨win1_5.index t (0 : Fin 2) * 1024 + 1 * p.val, by omega⟩ : Fin 32768) k) := fun k => by
    show V c main_arg0 (((cfg1.win 0).blk t).view.emb (ix2 p k)) = _
    refine congrArg (V c main_arg0) (funext fun a => Fin.ext ?_)
    match a with
    | ⟨0, _⟩ => show win1_0.index t (0 : Fin 2) * 1024 + 1 * p.val = win1_5.index t (0 : Fin 2) * 1024 + 1 * p.val; omega
    | ⟨1, _⟩ => show win1_0.index t (1 : Fin 2) * 1024 + 1 * k.val = k.val; omega
  have hw : ∀ k : Fin 1024, iblk1 V c 1 t (ix2 q k)
      = V c main_v20 (ix2 (⟨win1_5.index t (1 : Fin 2) * 1024 + 1 * q.val, by omega⟩ : Fin 1024) k) := fun k => by
    show V c main_v20 (((cfg1.win 1).blk t).view.emb (ix2 q k)) = _
    refine congrArg (V c main_v20) (funext fun a => Fin.ext ?_)
    match a with
    | ⟨0, _⟩ => show win1_1.index t (0 : Fin 2) * 1024 + 1 * q.val = win1_5.index t (1 : Fin 2) * 1024 + 1 * q.val; omega
    | ⟨1, _⟩ => show win1_1.index t (1 : Fin 2) * 1024 + 1 * k.val = k.val; omega
  rw [hxs, hinv, hb]
  simp only [hx, hw]
  rfl

/-- An index of the output is in point t's block iff each coordinate is in the block's range on its axis. -/
theorem mem_blk (t : Fin cfg1.N) (i : S32768x1024.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole main_v26).slice (win1_5.rect t)).set ↔ _
  rw [View.set_slice_whole, Rect.mem_set_unit]
  exact Iff.rfl

/-- Row i of the output lies in the block of point i / 1024. -/
theorem cover (i : S32768x1024.Idx) :
    ∃ t : Fin cfg1.N, (cfg1.win 5).flush t = true ∧ i ∈ ((cfg1.win 5).blk t).view.set := by
  have hi0 : (i 0).val < 32768 := (i 0).isLt
  have hi1 : (i 1).val < 1024 := (i 1).isLt
  have hN : cfg1.N = 32 := by decide
  obtain ⟨t, ht⟩ : ∃ t : Fin cfg1.N, t.val = (i 0).val / 1024 := ⟨⟨(i 0).val / 1024, by rw [hN]; omega⟩, rfl⟩
  obtain ⟨e00, e01, e10, e11, e20, e21, e30, e31, e40, e41, e50, e51⟩ := idx_facts t
  refine ⟨t, flush1_5 t, ?_⟩
  rw [mem_blk]
  intro a
  match a with
  | ⟨0, _⟩ =>
    show win1_5.index t (0 : Fin 2) * 1024 ≤ (i 0).val ∧ (i 0).val < win1_5.index t (0 : Fin 2) * 1024 + 1024
    omega
  | ⟨1, _⟩ =>
    show win1_5.index t (1 : Fin 2) * 1024 ≤ (i 1).val ∧ (i 1).val < win1_5.index t (1 : Fin 2) * 1024 + 1024
    omega

/-- The output array after the launch. -/
theorem final (c : Dev nD) :
    (dat1 V c).arrAt 5 cfg1.N = outOf (V c main_arg0) (V c main_v20) (V c main_v25) (V c main_v24) (V c main_v23) :=
  (dat1 V c).arrAt_eq_of_cover 5 _ (fun t _ => flushed_eq V c t) cover

end Cert.KernelIdeal.MatmulRegion

end
-- ==== Proof.LibTypedRefs.lean ====
/-
  Typed buffer references: the two transports between a value's type and its buffer's type cancel.

  A module-local function's operations are stated at the type of the tensor value (`T.Contents`), and moved to the
  buffer's own contents type along the reference's type equation, `toBuf`, and back, `ofBuf`. When a fold over such
  operations is read back, every intermediate value comes wrapped `x.ofBuf (x.toBuf v)`; the wrapper is the identity,
  for any typed reference `x` whatever its buffer. A value that crosses between such a function and the caller is
  wrapped once only (`x.ofBuf v` or `x.toBuf v` at a literal buffer whose type IS the value's); those go by unfolding
  the two transports to `cast` and core's `cast_eq`. So
      simp only [Cert.TypedRefs.ofBuf_toBuf, Cert.TypedRefs.toBuf_ofBuf, TRef.ofBuf, TRef.toBuf, cast_eq]
  leaves the plain term of the operations, which a closing `rfl` can then meet; with the wrappers still in place a
  `rfl` has to see through one cast per intermediate value and does not come back on a long function.
-/
import Idealize.ShloMosaic.Lib.StableHlo

namespace Cert.TypedRefs

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  unfold TRef.ofBuf TRef.toBuf
  rw [cast_cast]
  exact cast_eq _ _

/-- Buffer contents moved to the value's type and back are the buffer contents. -/
theorem toBuf_ofBuf (x : TRef sig T) (v : x.ref.ty.Contents Val) : x.toBuf (x.ofBuf v) = v := by
  unfold TRef.ofBuf TRef.toBuf
  rw [cast_cast]
  exact cast_eq _ _

end Cert.TypedRefs
-- ==== Proof.HostStages.lean ====
/-
  The arrays the matmul launch is entered with, as the host operations between the two launches leave them.

  Between the launches the host takes the maximum of the 128×128 array of partial maxima, turns it into the activation
  scale, computes the weight's scale from the maximum of |weight|, quantizes the weight with it, forms the output
  scale 1 / (sx·sw), and reshapes the two scales to 1×1 arrays and the bias to a row. No host operation writes an
  argument, and x reaches the second launch as it was given.
-/
import proofs.«156205_j49031346651645_2_alg».proof.Proof.Gen.KernelIdeal.Frame
import Idealize.ShloMosaic.Lib.StableHlo.Run
import Idealize.ShloMosaic.PureOps.Ideal
import Idealize.ShloMosaic.Lib.ValueIdx
import proofs.«156205_j49031346651645_2_alg».proof.Proof.Spec
import proofs.«156205_j49031346651645_2_alg».proof.Proof.LibTypedRefs

set_option maxRecDepth 16384

noncomputable section

namespace Cert.KernelIdeal.HostStages

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QuantSpec
open Facts₀ Facts
open Idealize.ShloMosaic.StableHlo

variable (m : (ℓ : Loc nD τ sig) → Buf (Elt Ideal) ℓ) (ρ : Dev nD → PrngReg) (c : Dev nD)

/-- A rank-0 float array. -/
abbrev Sc : Type := FVec Ideal S_ .f32
/-- A 1024×1024 float array. -/
abbrev Mat : Type := FVec Ideal S1024x1024 .f32

/-- The scale from an absolute maximum, as the host prints it: 448 / (a·2 + ε), clamped below, then above. -/
def scaleStage (a : Sc) : Sc :=
  minimumf (id (constant (F := Ideal) S_ .f32 0x5368D4A5#32)) (maximumf (id (constant (F := Ideal) S_ .f32 0x2B8CBCCC#32))
    (Host.divf (constant (F := Ideal) S_ .f32 0x43E00000#32)
      (addf (mulf a (constant (F := Ideal) S_ .f32 0x40000000#32)) (constant (F := Ideal) S_ .f32 0x2B8CBCCC#32))))

/-- The maximum of the 128×128 array of partial maxima. -/
def amaxOfPartials (p : FVec Ideal S128x128 .f32) : Sc :=
  Host.reduce (FloatOps.maximumf (F := Ideal) (φ := .f32)) p (constant (F := Ideal) S_ .f32 0xFF800000#32) Gen.reducesTo_S128x128_S_d0_1 Gen.h_S_

/-- The maximum of |weight|. -/
def amaxOfWeight (w : Mat) : Sc :=
  Host.reduce (FloatOps.maximumf (F := Ideal) (φ := .f32)) (Host.absf w) (constant (F := Ideal) S_ .f32 0xFF800000#32) Gen.reducesTo_S1024x1024_S_d0_1 Gen.h_S_

/-- The weight quantized at scale `sw`, as the host prints it. -/
def weightStage (w : Mat) (sw : Sc) : FVec Ideal S1024x1024 .bf16 :=
  truncf .bf16 (Host.divf (Host.roundeven (mulf
      (minimumf (broadcastInDim S1024x1024 ![] Gen.bcast_S_S1024x1024 (id (constant (F := Ideal) S_ .f32 0x43E00000#32)))
        (maximumf (broadcastInDim S1024x1024 ![] Gen.bcast_S_S1024x1024 (id (constant (F := Ideal) S_ .f32 0xC3E00000#32)))
          (mulf w (broadcastInDim S1024x1024 ![] Gen.bcast_S_S1024x1024 sw))))
      (broadcastInDim S1024x1024 ![] Gen.bcast_S_S1024x1024 (constant (F := Ideal) S_ .f32 0x41000000#32))))
    (broadcastInDim S1024x1024 ![] Gen.bcast_S_S1024x1024 (constant (F := Ideal) S_ .f32 0x41000000#32))) Gen.bitsLt_bf16_f32

/-- The output scale 1 / (sx·sw). -/
def invStage (sx sw : Sc) : Sc :=
  Host.divf (constant (F := Ideal) S_ .f32 0x3F800000#32) (mulf sx sw)

/-- The first launch leaves x as launched. -/
theorem W1_x : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The first launch does not touch the weight. -/
theorem W1_w : W1 m ρ c (Proc.devRef .tc main_arg1) = m ((c : Thread nD τ).loc main_arg1) :=
  W1_of_ne m ρ c main_arg1 (by decide)

/-- The first launch does not touch the bias. -/
theorem W1_b : W1 m ρ c (Proc.devRef .tc main_arg2) = m ((c : Thread nD τ).loc main_arg2) :=
  W1_of_ne m ρ c main_arg2 (by decide)

end Cert.KernelIdeal.HostStages

end
-- ==== Proof.EntryX.lean ====
/-
  x and the bias as the second launch finds them: no host operation writes an argument.
-/
import proofs.«156205_j49031346651645_2_alg».proof.Proof.HostStages

set_option maxRecDepth 16384

noncomputable section

namespace Cert.KernelIdeal.HostStages

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QuantSpec
open Facts₀ Facts
open Idealize.ShloMosaic.StableHlo

variable (m : (ℓ : Loc nD τ sig) → Buf (Elt Ideal) ℓ) (ρ : Dev nD → PrngReg) (c : Dev nD)

/-- x at the second launch's entry. -/
theorem entry_x : W10 m ρ c (Proc.devRef .tc main_arg0) = m ((c : Thread nD τ).loc main_arg0) := by
  refine Eq.trans ?_ (W1_x m ρ c)
  after_results_simp

/-- The bias row at the second launch's entry. -/
theorem entry_b : W10 m ρ c (Proc.devRef .tc main_v25)
    = shapeCast S1x1024 (m ((c : Thread nD τ).loc main_arg2)) Gen.shapeCasts_S1024_S1x1024 := by
  rw [← W1_b m ρ c]
  after_results_simp
  rfl

end Cert.KernelIdeal.HostStages

end
-- ==== Proof.EntryXs.lean ====
/-
  The activation scale as the second launch finds it: the 1×1 reshape of the scale computed from the maximum of the
  partial maxima the first launch left.
-/
import proofs.«156205_j49031346651645_2_alg».proof.Proof.HostStages

set_option maxRecDepth 16384

noncomputable section

namespace Cert.KernelIdeal.HostStages

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QuantSpec
open Facts₀ Facts
open Idealize.ShloMosaic.StableHlo

variable (m : (ℓ : Loc nD τ sig) → Buf (Elt Ideal) ℓ) (ρ : Dev nD → PrngReg) (c : Dev nD)

/-- The activation scale, a 1×1 array, at the second launch's entry. -/
theorem entry_xs : W10 m ρ c (Proc.devRef .tc main_v24)
    = shapeCast S1x1 (scaleStage (amaxOfPartials (W1 m ρ c (Proc.devRef .tc main_v0)))) Gen.shapeCasts_S_S1x1 := by
  after_results_simp
  simp only [Cert.TypedRefs.ofBuf_toBuf, Cert.TypedRefs.toBuf_ofBuf]
  rfl

end Cert.KernelIdeal.HostStages

end
-- ==== Proof.EntryW.lean ====
/-
  The quantized weight as the second launch finds it.
-/
import proofs.«156205_j49031346651645_2_alg».proof.Proof.HostStages

set_option maxRecDepth 16384

noncomputable section

namespace Cert.KernelIdeal.HostStages

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QuantSpec
open Facts₀ Facts
open Idealize.ShloMosaic.StableHlo

variable (m : (ℓ : Loc nD τ sig) → Buf (Elt Ideal) ℓ) (ρ : Dev nD → PrngReg) (c : Dev nD)

/-- The quantized weight at the second launch's entry. -/
theorem entry_w : W10 m ρ c (Proc.devRef .tc main_v20)
    = weightStage (m ((c : Thread nD τ).loc main_arg1)) (scaleStage (amaxOfWeight (m ((c : Thread nD τ).loc main_arg1)))) := by
  rw [← W1_w m ρ c]
  after_results_simp
  simp only [Cert.TypedRefs.ofBuf_toBuf, Cert.TypedRefs.toBuf_ofBuf]
  rfl

end Cert.KernelIdeal.HostStages

end
-- ==== Proof.EntryInv.lean ====
/-
  The output scale 1 / (sx·sw) as the second launch finds it, a 1×1 array.
-/
import proofs.«156205_j49031346651645_2_alg».proof.Proof.HostStages

set_option maxRecDepth 16384

noncomputable section

namespace Cert.KernelIdeal.HostStages

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QuantSpec
open Facts₀ Facts
open Idealize.ShloMosaic.StableHlo

variable (m : (ℓ : Loc nD τ sig) → Buf (Elt Ideal) ℓ) (ρ : Dev nD → PrngReg) (c : Dev nD)

/-- The output scale, a 1×1 array, at the second launch's entry. -/
theorem entry_inv : W10 m ρ c (Proc.devRef .tc main_v23)
    = shapeCast S1x1 (invStage (scaleStage (amaxOfPartials (W1 m ρ c (Proc.devRef .tc main_v0))))
        (scaleStage (amaxOfWeight (m ((c : Thread nD τ).loc main_arg1))))) Gen.shapeCasts_S_S1x1 := by
  rw [← W1_w m ρ c]
  after_results_simp
  simp only [Cert.TypedRefs.ofBuf_toBuf, Cert.TypedRefs.toBuf_ofBuf]
  rfl

end Cert.KernelIdeal.HostStages

end
-- ==== Proof.Fused.lean ====
/-
  The two programs' results as functions of the three arguments, and their equality.

  With sx and sw the scales of x and of the weight: the kernel's result at (i, j) is the contraction over k of the
  quantized x(i, k) against the quantized weight(j, k), times 1 / (sx·sw), plus bias j; the reference's is the
  contraction of the quantized entries each divided by its scale, plus bias j. The scales are nonzero reals and the
  quantized entries are reals, so the factor moves across the sum and the two are one function.
-/
import proofs.«156205_j49031346651645_2_alg».proof.Proof.Spec
import Idealize.ShloMosaic.Lib.ValueIdx

noncomputable section

namespace Cert.QuantSpec

open Idealize.ShloMosaic Idealize.ShloMosaic.ValueIdx

/-- The supremum of the absolute values of an array's entries. -/
def absMax {s : Shape} (x : s.Idx → EReal) : EReal := Finset.univ.sup (fun j => max (x j) (-(x j)))

abbrev SX : Shape := ⟨2, ![32768, 1024]⟩
abbrev SW : Shape := ⟨2, ![1024, 1024]⟩
abbrev SB : Shape := ⟨1, ![1024]⟩

/-- One output-side scale applied to the contraction of the quantized entries. -/
def fusedOut (X : SX.Idx → EReal) (Wt : SW.Idx → EReal) (B : SB.Idx → EReal) : SX.Idx → EReal := fun i =>
  (∑ k : Fin 1024, quant (scaleOf (absMax X)) (X (ix2 (⟨(i 0).val, (i 0).isLt⟩ : Fin 32768) k))
      * quant (scaleOf (absMax Wt)) (Wt (ix2 (⟨(i 1).val, (i 1).isLt⟩ : Fin 1024) k)))
    * Ideal.div (Ideal.ofBits .f32 0x3F800000#32) (scaleOf (absMax X) * scaleOf (absMax Wt))
  + B (ix1 (⟨(i 1).val, (i 1).isLt⟩ : Fin 1024))

/-- The contraction of the quantized entries each divided by its scale. -/
def dequantOut (X : SX.Idx → EReal) (Wt : SW.Idx → EReal) (B : SB.Idx → EReal) : SX.Idx → EReal := fun i =>
  (∑ k : Fin 1024, Ideal.div (quant (scaleOf (absMax X)) (X (ix2 (⟨(i 0).val, (i 0).isLt⟩ : Fin 32768) k))) (scaleOf (absMax X))
      * Ideal.div (quant (scaleOf (absMax Wt)) (Wt (ix2 (⟨(i 1).val, (i 1).isLt⟩ : Fin 1024) k))) (scaleOf (absMax Wt)))
  + B (ix1 (⟨(i 1).val, (i 1).isLt⟩ : Fin 1024))

/-- The two are one function. -/
theorem fusedOut_eq_dequantOut (X : SX.Idx → EReal) (Wt : SW.Idx → EReal) (B : SB.Idx → EReal) :
    fusedOut X Wt B = dequantOut X Wt B := by
  funext i
  unfold fusedOut dequantOut
  rw [dequant_sum _ _ (fun k => quant_real _ _) (fun k => quant_real _ _) _ _ (scaleOf_real _) (scaleOf_real _)]

end Cert.QuantSpec

end
-- ==== Proof.LibHostMaxAll.lean ====
/-
  The host's maximum over every axis, on the extended reals. Independent of any program.

  `hostReduceMax_all` — at the ideal values a host reduce-maximum of an array over ALL its axes into a rank-0 result,
  from an initial value that is the bottom element (the pattern of minus infinity), is the supremum of the array's
  entries over every index: the fold has no order left in it, and every index reduces to the one result index.
-/
import Idealize.ShloMosaic.PureOps.Reduce
import Idealize.ShloMosaic.PureOps.Ideal.Laws

namespace Cert.HostMaxAll

open Idealize.ShloMosaic

/-- A rank-0 shape has one index. -/
instance : Subsingleton (⟨0, ![]⟩ : Shape).Idx := ⟨fun a b => funext fun d => d.elim0⟩

/-- The host's maximum over all axes, from the bottom element, is the supremum over every index. -/
theorem hostReduceMax_all {s u : Shape} {axes : List (Fin s.rank)} (x : s.Idx → EReal) (init : u.Idx → EReal)
    (h : s.ReducesTo axes ⟨0, ![]⟩) (hu : 0 < u.numel) (hinit : init (Shape.Idx.first hu) = ⊥) (j : (⟨0, ![]⟩ : Shape).Idx) :
    Host.reduce (FloatOps.maximumf (F := Ideal) (φ := .f32)) x init h hu j = Finset.univ.sup x := by
  rw [Host.reduce_eq_fold, hinit, Finset.filter_true_of_mem (fun i _ => Subsingleton.elim _ _)]
  rfl

end Cert.HostMaxAll
-- ==== Proof.KernelValue.lean ====
/-
  The kernel program's result as a function of its three arguments.

  The first launch leaves the 128×128 array of partial maxima, whose supremum is the supremum of |x|: every partial
  maximum is a supremum of |x| over some rows, and every entry of x is below the partial maximum of its rows. So the
  activation scale the second launch receives is the scale of x, the weight it receives is the weight quantized at the
  weight's scale, and the output scale is 1 / (sx·sw): the result is `fusedOut` of the arguments.
-/
import proofs.«156205_j49031346651645_2_alg».proof.Proof.Region0
import proofs.«156205_j49031346651645_2_alg».proof.Proof.Region1
import proofs.«156205_j49031346651645_2_alg».proof.Proof.HostStages
import proofs.«156205_j49031346651645_2_alg».proof.Proof.EntryX
import proofs.«156205_j49031346651645_2_alg».proof.Proof.EntryXs
import proofs.«156205_j49031346651645_2_alg».proof.Proof.EntryW
import proofs.«156205_j49031346651645_2_alg».proof.Proof.EntryInv
import proofs.«156205_j49031346651645_2_alg».proof.Proof.Fused
import proofs.«156205_j49031346651645_2_alg».proof.Proof.LibHostMaxAll
import Idealize.ShloMosaic.Lib.ValueLayout
import Idealize.ShloMosaic.Lib.Pipeline.Value

set_option maxRecDepth 16384

noncomputable section

namespace Cert.KernelIdeal.KernelValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.QuantSpec
open Facts₀ Facts
open Cert.KernelIdeal.HostStages Cert.QuantConsts

variable (m : (ℓ : Loc nD τ sig) → Buf (Elt Ideal) ℓ) (ρ : Dev nD → PrngReg) (c : Dev nD)

/-- The supremum of the partial maxima is the supremum of |x|. -/
theorem amax_partials (x : S32768x1024.Idx → Elt Ideal .f32) :
    Finset.univ.sup (AmaxRegion.partialsOf x) = absMax x := by
  unfold absMax
  refine sup_eq_of_cofinal (fun j => max (x j) (-(x j))) (AmaxRegion.partialsOf x) (fun r => ?_) (fun i => ?_)
  · unfold AmaxRegion.partialsOf
    exact Finset.sup_le fun a _ => Finset.sup_le fun l _ =>
      Finset.le_sup (f := fun j => max (x j) (-(x j))) (Finset.mem_univ _)
  · have hi0 : (i 0).val < 32768 := (i 0).isLt
    have hi1 : (i 1).val < 1024 := (i 1).isLt
    refine ⟨ix2 (⟨(i 0).val / 2048 * 8, by omega⟩ : Fin 128) (0 : Fin 128), ?_⟩
    unfold AmaxRegion.partialsOf
    have hidx : ix2 (⟨(i 0).val / 2048 * 8 / 8 * 2048 + (i 0).val % 2048, by omega⟩ : Fin 32768)
        (⟨(i 1).val, hi1⟩ : Fin 1024) = i := funext fun a => Fin.ext (by
      match a with
      | ⟨0, _⟩ => show (i 0).val / 2048 * 8 / 8 * 2048 + (i 0).val % 2048 = (i 0).val; omega
      | ⟨1, _⟩ => rfl)
    refine le_trans ?_ (Finset.le_sup (f := fun a : Fin 2048 => Finset.univ.sup (fun l : Fin 1024 =>
      AmaxBody.absE (x (ix2 (⟨(i 0).val / 2048 * 8 / 8 * 2048 + a.val, by
        have ha : a.val < 2048 := a.isLt
        omega⟩ : Fin 32768) l)))) (Finset.mem_univ (⟨(i 0).val % 2048, by omega⟩ : Fin 2048)))
    refine le_trans ?_ (Finset.le_sup (f := fun l : Fin 1024 =>
      AmaxBody.absE (x (ix2 (⟨(i 0).val / 2048 * 8 / 8 * 2048 + (i 0).val % 2048, by omega⟩ : Fin 32768) l)))
      (Finset.mem_univ (⟨(i 1).val, hi1⟩ : Fin 1024)))
    show max (x i) (-(x i)) ≤ AmaxBody.absE (x (ix2 _ _))
    rw [hidx]

/-- A rank-0 array reshaped to 1×1 reads its one entry. -/
theorem shapeCast_scalar_11 (f : S_.Idx → Elt Ideal .f32) (h : S_.ShapeCasts S1x1) (j : S1x1.Idx) :
    shapeCast S1x1 f h j = f ix0 :=
  shapeCast_apply f h j ix0 (by
    have h1 : (S_.rowMajor ix0).val < 1 := (S_.rowMajor ix0).isLt
    have h2 : (S1x1.rowMajor j).val < 1 := (S1x1.rowMajor j).isLt
    omega)

/-- A rank-0 array stretched over a matrix reads its one entry everywhere. -/
theorem bcast_scalar {α : Type} (y : S_.Idx → α) (i : S1024x1024.Idx) :
    broadcastInDim S1024x1024 ![] Gen.bcast_S_S1024x1024 y i = y ix0 :=
  broadcastInDim_apply _ Gen.bcast_S_S1024x1024 y i ix0 (fun a => a.elim0)

/-- The host's scale of a rank-0 maximum, at its one index. -/
theorem scaleStage_apply (a : Sc) (j : S_.Idx) : scaleStage a j = scaleOf (a j) := by
  simp only [scaleStage, scaleOf, minimumf, maximumf, Host.divf, addf, mulf, constant, id, Ideal.minimumf_def,
    Ideal.maximumf_def, Ideal.hostDivf_def, Ideal.addf_def, Ideal.mulf_def, Ideal.ofBits_def]

/-- The host's output scale, at its one index. -/
theorem invStage_apply (sx sw : Sc) (j : S_.Idx) :
    invStage sx sw j = Ideal.div (Ideal.ofBits .f32 0x3F800000#32) (sx j * sw j) := by
  simp only [invStage, Host.divf, mulf, constant, Ideal.hostDivf_def, Ideal.mulf_def, Ideal.ofBits_def]

/-- The partial maxima the first launch leaves. -/
theorem partials : W1 m ρ c (Proc.devRef .tc main_v0) = AmaxRegion.partialsOf (m ((c : Thread nD τ).loc main_arg0)) :=
  (W1_arr m ρ c 1).trans (AmaxRegion.final (V0 m ρ) c)

/-- The scale computed from the partial maxima is the scale of x. -/
theorem scale_x : scaleStage (amaxOfPartials (W1 m ρ c (Proc.devRef .tc main_v0))) ix0
    = scaleOf (absMax (m ((c : Thread nD τ).loc main_arg0))) := by
  rw [scaleStage_apply]
  unfold amaxOfPartials
  rw [Cert.HostMaxAll.hostReduceMax_all _ _ _ _ ofBits_neg_inf ix0, partials, amax_partials]

/-- The scale computed from the weight is the scale of the weight. -/
theorem scale_w (w : Mat) : scaleStage (amaxOfWeight w) ix0 = scaleOf (absMax w) := by
  rw [scaleStage_apply]
  unfold amaxOfWeight
  rw [Cert.HostMaxAll.hostReduceMax_all _ _ _ _ ofBits_neg_inf ix0]
  unfold absMax
  exact congrArg (fun f => scaleOf (Finset.sup Finset.univ f)) (funext fun i => rfl)

/-- An entry of the quantized weight. -/
theorem weightStage_apply (w : Mat) (sw : Sc) (i : S1024x1024.Idx) : weightStage w sw i = quant (sw ix0) (w i) := by
  simp only [weightStage, quant, truncf, Host.divf, Host.roundeven, mulf, minimumf, maximumf, bcast_scalar, constant, id,
    Ideal.truncf_def, Ideal.hostDivf_def, Ideal.hostUnary_roundeven_def, Ideal.mulf_def, Ideal.minimumf_def,
    Ideal.maximumf_def, Ideal.ofBits_def]
  rw [bcast_scalar sw i, bcast_scalar (constant (F := Ideal) S_ .f32 0x43E00000#32) i,
    bcast_scalar (constant (F := Ideal) S_ .f32 0xC3E00000#32) i, bcast_scalar (constant (F := Ideal) S_ .f32 0x41000000#32) i]
  simp only [constant, Ideal.ofBits_def]

/-- `outOf` of arrays that are the host's stages of the arguments is `fusedOut` of the arguments. -/
theorem outOf_eq (x : S32768x1024.Idx → Elt Ideal .f32) (wq : S1024x1024.Idx → Elt Ideal .bf16)
    (b : S1x1024.Idx → Elt Ideal .f32) (xs inv : S1x1.Idx → Elt Ideal .f32)
    (X : S32768x1024.Idx → Elt Ideal .f32) (Wt : S1024x1024.Idx → Elt Ideal .f32) (B : S1024.Idx → Elt Ideal .f32)
    (hx : x = X) (hw : ∀ i : S1024x1024.Idx, wq i = quant (scaleOf (absMax Wt)) (Wt i))
    (hb : ∀ q : Fin 1024, b (ix2 (0 : Fin 1) q) = B (ix1 q))
    (hxs : xs (ix2 (0 : Fin 1) (0 : Fin 1)) = scaleOf (absMax X))
    (hinv : inv (ix2 (0 : Fin 1) (0 : Fin 1))
      = Ideal.div (Ideal.ofBits .f32 0x3F800000#32) (scaleOf (absMax X) * scaleOf (absMax Wt))) :
    MatmulRegion.outOf x wq b xs inv = fusedOut X Wt B := by
  subst hx
  funext i
  unfold MatmulRegion.outOf fusedOut
  rw [hxs, hinv, hb]
  simp only [hw]

/-- The kernel program's result array. -/
theorem result_eq : W11 m ρ c (Proc.devRef .tc main_v26)
    = fusedOut (m ((c : Thread nD τ).loc main_arg0)) (m ((c : Thread nD τ).loc main_arg1)) (m ((c : Thread nD τ).loc main_arg2)) := by
  refine ((W11_arr m ρ c 5).trans (MatmulRegion.final (V10 m ρ) c)).trans ?_
  refine outOf_eq _ _ _ _ _ _ _ _ (entry_x m ρ c) (fun i => ?_) (fun q => ?_) ?_ ?_
  · show W10 m ρ c (Proc.devRef .tc main_v20) i = _
    rw [entry_w, weightStage_apply, scale_w]
  · show W10 m ρ c (Proc.devRef .tc main_v25) (ix2 (0 : Fin 1) q) = _
    rw [entry_b]
    exact shapeCast_a_1a_apply _ _ 0 q
  · show W10 m ρ c (Proc.devRef .tc main_v24) (ix2 (0 : Fin 1) (0 : Fin 1)) = _
    rw [entry_xs, shapeCast_scalar_11, scale_x]
  · show W10 m ρ c (Proc.devRef .tc main_v23) (ix2 (0 : Fin 1) (0 : Fin 1)) = _
    rw [entry_inv, shapeCast_scalar_11, invStage_apply, scale_x, scale_w]

end Cert.KernelIdeal.KernelValue

end
-- ==== Proof.RefValue.lean ====
/-
  The reference's result as a function of its three arguments.

  Read one operation at a time, the reference computes the scale of the weight and of x from their absolute maxima,
  quantizes both, divides each quantized entry by its scale, contracts row i of x against row j of the weight and adds
  bias j. The two absolute maxima are host maxima over every axis from minus infinity, so they are suprema.
-/
import proofs.«156205_j49031346651645_2_alg».proof.Proof.Gen.ReferenceIdeal.Read
import proofs.«156205_j49031346651645_2_alg».proof.Proof.Fused
import proofs.«156205_j49031346651645_2_alg».proof.Proof.LibHostMaxAll

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.QuantSpec Cert.QuantConsts

/-- The reference's absolute maximum of x is the supremum of |x|. -/
theorem amax_x (x : (⟨S32768x1024, .f32⟩ : BufTy).Contents (Elt Ideal)) (j : S_.Idx) :
    val_main_v15 (F := Ideal) x j = absMax x := by
  unfold val_main_v15
  rw [Cert.HostMaxAll.hostReduceMax_all (val_main_v14 (F := Ideal) x) (val_main_cst_9 (F := Ideal)) _ _ ofBits_neg_inf j]
  unfold absMax
  exact congrArg (Finset.sup Finset.univ) (funext fun i => rfl)

/-- The reference's absolute maximum of the weight is the supremum of |weight|. -/
theorem amax_w (w : (⟨S1024x1024, .f32⟩ : BufTy).Contents (Elt Ideal)) (j : S_.Idx) :
    val_main_v1 (F := Ideal) w j = absMax w := by
  unfold val_main_v1
  rw [Cert.HostMaxAll.hostReduceMax_all (val_main_v0 (F := Ideal) w) (val_main_cst (F := Ideal)) _ _ ofBits_neg_inf j]
  unfold absMax
  exact congrArg (Finset.sup Finset.univ) (funext fun i => rfl)

/-- The reference's scale of x. -/
theorem scale_x (x : (⟨S32768x1024, .f32⟩ : BufTy).Contents (Elt Ideal)) (j : S_.Idx) :
    val_main_v19 (F := Ideal) x j = scaleOf (absMax x) := by
  rw [val_main_v19_apply, val_main_call3_v2_apply, val_main_call3_v1_apply, val_main_call3_v0_apply, val_main_cst_14_apply, val_main_cst_13_apply, val_main_v18_apply, val_main_cst_12_apply, val_main_v17_apply, val_main_cst_11_apply, val_main_v16_apply, val_main_cst_10_apply, amax_x]
  generalize absMax x = a
  simp only [scaleOf, Ideal.minimumf_def, Ideal.maximumf_def, Ideal.hostDivf_def, Ideal.addf_def, Ideal.mulf_def, Ideal.ofBits_def, Ideal.hostUnary_roundeven_def]

/-- The reference's scale of the weight. -/
theorem scale_w (w : (⟨S1024x1024, .f32⟩ : BufTy).Contents (Elt Ideal)) (j : S_.Idx) :
    val_main_v5 (F := Ideal) w j = scaleOf (absMax w) := by
  rw [val_main_v5_apply, val_main_call0_v2_apply, val_main_call0_v1_apply, val_main_call0_v0_apply, val_main_cst_4_apply, val_main_cst_3_apply, val_main_v4_apply, val_main_cst_2_apply, val_main_v3_apply, val_main_cst_1_apply, val_main_v2_apply, val_main_cst_0_apply, amax_w]
  generalize absMax w = a
  simp only [scaleOf, Ideal.minimumf_def, Ideal.maximumf_def, Ideal.hostDivf_def, Ideal.addf_def, Ideal.mulf_def, Ideal.ofBits_def, Ideal.hostUnary_roundeven_def]

/-- An entry of x quantized and divided by its scale. -/
theorem dequant_x (x : (⟨S32768x1024, .f32⟩ : BufTy).Contents (Elt Ideal)) (i : S32768x1024.Idx) :
    val_main_v29 (F := Ideal) x i = Ideal.div (quant (scaleOf (absMax x)) (x i)) (scaleOf (absMax x)) := by
  have h : ∀ j : S_.Idx, val_main_v19 (F := Ideal) x j = scaleOf (absMax x) := scale_x x
  generalize scaleOf (absMax x) = s at h ⊢
  rw [val_main_v29_apply, val_main_v28_apply, val_main_v27_apply, val_main_v26_apply, val_main_cst_18_apply, val_main_v25_apply, val_main_v24_apply, val_main_v23_apply, val_main_cst_17_apply, val_main_v22_apply, val_main_call4_v4_apply, val_main_call4_v3_apply, val_main_cst_16_apply, val_main_call4_v2_apply, val_main_call4_v1_apply, val_main_call4_v0_apply, val_main_cst_15_apply, val_main_v21_apply, val_main_v20_apply]
  simp only [h]
  simp only [quant, Ideal.minimumf_def, Ideal.maximumf_def, Ideal.hostDivf_def, Ideal.addf_def, Ideal.mulf_def, Ideal.ofBits_def, Ideal.hostUnary_roundeven_def]

/-- An entry of the weight quantized and divided by its scale. -/
theorem dequant_w (w : (⟨S1024x1024, .f32⟩ : BufTy).Contents (Elt Ideal)) (i : S1024x1024.Idx) :
    val_main_v31 (F := Ideal) w i = Ideal.div (quant (scaleOf (absMax w)) (w i)) (scaleOf (absMax w)) := by
  have h : ∀ j : S_.Idx, val_main_v5 (F := Ideal) w j = scaleOf (absMax w) := scale_w w
  generalize scaleOf (absMax w) = s at h ⊢
  rw [val_main_v31_apply, val_main_v30_apply, val_main_v13_apply, val_main_v12_apply, val_main_cst_8_apply, val_main_v11_apply, val_main_v10_apply, val_main_v9_apply, val_main_cst_7_apply, val_main_v8_apply, val_main_call1_v4_apply, val_main_call1_v3_apply, val_main_cst_6_apply, val_main_call1_v2_apply, val_main_call1_v1_apply, val_main_call1_v0_apply, val_main_cst_5_apply, val_main_v7_apply, val_main_v6_apply]
  simp only [h]
  simp only [quant, Ideal.minimumf_def, Ideal.maximumf_def, Ideal.hostDivf_def, Ideal.addf_def, Ideal.mulf_def, Ideal.ofBits_def, Ideal.hostUnary_roundeven_def]

/-- The reference's result is the contraction of the dequantized entries plus the bias. -/
theorem result_eq (x : (⟨S32768x1024, .f32⟩ : BufTy).Contents (Elt Ideal)) (w : (⟨S1024x1024, .f32⟩ : BufTy).Contents (Elt Ideal))
    (b : (⟨S1024, .f32⟩ : BufTy).Contents (Elt Ideal)) :
    val_main_v35 (F := Ideal) x w b = dequantOut x w b := by
  funext i
  have hl : ∀ k : Fin 1024, lidx_main_v32 i k = ix2 (⟨(i 0).val, (i 0).isLt⟩ : Fin 32768) k := fun k =>
    funext fun a => by match a with | ⟨0, _⟩ => rfl | ⟨1, _⟩ => rfl
  have hr : ∀ k : Fin 1024, ridx_main_v32 i k = ix2 (⟨(i 1).val, (i 1).isLt⟩ : Fin 1024) k := fun k =>
    funext fun a => by match a with | ⟨0, _⟩ => rfl | ⟨1, _⟩ => rfl
  have hb : idx_main_v33 (idx_main_v34 i) = ix1 (⟨(i 1).val, (i 1).isLt⟩ : Fin 1024) :=
    funext fun a => by match a with | ⟨0, _⟩ => rfl
  have hx := dequant_x x
  have hw := dequant_w w
  rw [val_main_v35_apply, val_main_v32_apply, val_main_v34_apply, val_main_v33_apply]
  unfold dequantOut
  generalize scaleOf (absMax x) = sx at hx ⊢
  generalize scaleOf (absMax w) = sw at hw ⊢
  simp only [hx, hw, hl, hr, hb, Ideal.addf_def]

end Cert.ReferenceIdeal.RefValue

end
-- ==== Proof.lean ====
/-
  The kernel quantizes x and the weight to a 1/8 grid at per-tensor scales, multiplies the quantized matrices and
  undoes both scales with one factor 1 / (sx·sw) on the output; the reference divides each quantized entry by its
  scale before multiplying. On the extended reals the scales are nonzero reals (they are clamped between two
  positive bounds) and the quantized entries are reals (they are clamped to [-448, 448] before rounding), so the one
  factor moves across the finite sum and the two results are equal entry by entry. The kernel takes the scale of x
  from block maxima of |x| whose maximum is the maximum of |x|.

  The kernel program's frames are its generated frame certificate; the reference's frame is its generated run with the
  result dropped; nothing was rewritten by the ideal pass. The value claim: the kernel's run leaves its result at the
  fold of its segments, which is `fusedOut` of the arguments; the reference's run leaves its result at `dequantOut` of
  the arguments; the two are one function.
-/
import proofs.«156205_j49031346651645_2_alg».proof.Defs
import proofs.«156205_j49031346651645_2_alg».proof.Proof.Gen.Kernel
import proofs.«156205_j49031346651645_2_alg».proof.Proof.Gen.Kernel.Skeleton
import proofs.«156205_j49031346651645_2_alg».proof.Proof.Gen.Kernel.Launch
import proofs.«156205_j49031346651645_2_alg».proof.Proof.Gen.Kernel.Points
import proofs.«156205_j49031346651645_2_alg».proof.Proof.Gen.Kernel.Frame
import proofs.«156205_j49031346651645_2_alg».proof.Proof.Gen.KernelIdeal
import proofs.«156205_j49031346651645_2_alg».proof.Proof.Gen.KernelIdeal.Skeleton
import proofs.«156205_j49031346651645_2_alg».proof.Proof.Gen.KernelIdeal.Launch
import proofs.«156205_j49031346651645_2_alg».proof.Proof.Gen.KernelIdeal.Points
import proofs.«156205_j49031346651645_2_alg».proof.Proof.Gen.KernelIdeal.Frame
import proofs.«156205_j49031346651645_2_alg».proof.Proof.Gen.ReferenceIdeal
import proofs.«156205_j49031346651645_2_alg».proof.Proof.Gen.ReferenceIdeal.Run
import proofs.«156205_j49031346651645_2_alg».proof.Proof.Gen.ReferenceIdeal.Read
import proofs.«156205_j49031346651645_2_alg».proof.Proof.Gen.Pre_finite_inputs
import proofs.«156205_j49031346651645_2_alg».proof.Proof.KernelRun
import proofs.«156205_j49031346651645_2_alg».proof.Proof.KernelValue
import proofs.«156205_j49031346651645_2_alg».proof.Proof.RefValue
import proofs.«156205_j49031346651645_2_alg».proof.Proof.Fused
import Idealize.ShloMosaic.Adequacy
import Idealize.ShloMosaic.Init

noncomputable section

namespace Cert.Proof

open Idealize.ShloMosaic Idealize.SL.Sem Cert.QuantSpec

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with `fusedOut` of the arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KernelValue.result_eq m ρ c), (h c).2⟩)
    (Cert.KernelIdeal.ValueRun.run (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v35_eq, Cert.ReferenceIdeal.RefValue.result_eq,
    (hagree c).1, (hagree c).2.1, (hagree c).2.2]
  exact (fusedOut_eq_dequantOut _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
